-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x6x128 : Shape := ⟨3, ![200000, 6, 128]⟩
abbrev S200000x6 : Shape := ⟨2, ![200000, 6]⟩
abbrev S200000 : Shape := ⟨1, ![200000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6x128 : S_.BroadcastsInDim S200000x6x128 (![] : Fin 0 → Fin S200000x6x128.rank)
  reducesTo_S200000x6x128_S_d0_1_2 : S200000x6x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S200000x128 .f32) (main_arg1 : FVec F S200000x6x128 .f32) (main_arg2 : IVec S200000x6 1) (main_arg3 : IVec S200000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6x128 .f32 := Host.absf main_arg1
  let main_cst_0 : FVec F S_ .f32 := constant S_ .f32 0x7F800000#32
  let main_v5 : FVec F S200000x6x128 .f32 := broadcastInDim S200000x6x128 ![] bcast_S_S200000x6x128 main_cst_0
  let main_v6 : IVec S200000x6x128 1 := cmpf .olt main_v4 main_v5
  let main_c_1 : IVec S_ 1 := constantI S_ 1 1#1
  let main_v7 : IVec S_ 1 := (fun x v => Host.reduce IntOp.andi x v reducesTo_S200000x6x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S200000x128 : Shape := ⟨2, ![200000, 128]⟩
abbrev S200000x6x128 : Shape := ⟨3, ![200000, 6, 128]⟩
abbrev S200000x6 : Shape := ⟨2, ![200000, 6]⟩
abbrev S200000 : Shape := ⟨1, ![200000]⟩
abbrev S128x128 : Shape := ⟨2, ![128, 128]⟩
abbrev S128 : Shape := ⟨1, ![128]⟩
abbrev S_ : Shape := ⟨0, ![]⟩
abbrev S200000x1 : Shape := ⟨2, ![200000, 1]⟩
abbrev S1x128 : Shape := ⟨2, ![1, 128]⟩
abbrev S2000x128 : Shape := ⟨2, ![2000, 128]⟩
abbrev S2000x6x128 : Shape := ⟨3, ![2000, 6, 128]⟩
abbrev S2000x6 : Shape := ⟨2, ![2000, 6]⟩
abbrev S2000x1x128 : Shape := ⟨3, ![2000, 1, 128]⟩
abbrev S2000x1 : Shape := ⟨2, ![2000, 1]⟩

abbrev nBuf : Space → Nat
  | .hbm => 24
  | .vmem => 16
  | .smem => 0
  | _ => 0

abbrev bufTy : (tb : Table) → Fin (tcTables nBuf tb) → BufTy
  | .hbm, ⟨0, _⟩ => ⟨S200000x128, .f32⟩
  | .hbm, ⟨1, _⟩ => ⟨S200000x6x128, .f32⟩
  | .hbm, ⟨2, _⟩ => ⟨S200000x6, .i1⟩
  | .hbm, ⟨3, _⟩ => ⟨S200000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000x128, .f32⟩
  | .hbm, ⟨19, _⟩ => ⟨S200000x6, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x6x128, .f32⟩
  | .local _ .vmem, ⟨3, _⟩ => ⟨S2000x6x128, .f32⟩
  | .local _ .vmem, ⟨4, _⟩ => ⟨S2000x6, .f32⟩
  | .local _ .vmem, ⟨5, _⟩ => ⟨S2000x6, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  inb_S2000x6x128_S2000x1x128_0_0_0 : ∀ a, (![0, 0, 0] : Fin 3 → Nat) a + S2000x1x128.size a ≤ S2000x6x128.size a
  h_S2000x1x128 : 0 < S2000x1x128.numel
  shapeCasts_S2000x1x128_S2000x128 : S2000x1x128.ShapeCasts S2000x128
  slices_S2000x6_o0_0_S2000x1 : S2000x6.Slices ![0, 0] S2000x1
  broadcasts_S2000x1_S2000x128 : S2000x1.Broadcasts S2000x128
  inb_S2000x6x128_S2000x1x128_0_1_0 : ∀ a, (![0, 1, 0] : Fin 3 → Nat) a + S2000x1x128.size a ≤ S2000x6x128.size a
  slices_S2000x6_o0_1_S2000x1 : S2000x6.Slices ![0, 1] S2000x1
  inb_S2000x6x128_S2000x1x128_0_2_0 : ∀ a, (![0, 2, 0] : Fin 3 → Nat) a + S2000x1x128.size a ≤ S2000x6x128.size a
  slices_S2000x6_o0_2_S2000x1 : S2000x6.Slices ![0, 2] S2000x1
  inb_S2000x6x128_S2000x1x128_0_3_0 : ∀ a, (![0, 3, 0] : Fin 3 → Nat) a + S2000x1x128.size a ≤ S2000x6x128.size a
  slices_S2000x6_o0_3_S2000x1 : S2000x6.Slices ![0, 3] S2000x1
  inb_S2000x6x128_S2000x1x128_0_4_0 : ∀ a, (![0, 4, 0] : Fin 3 → Nat) a + S2000x1x128.size a ≤ S2000x6x128.size a
  slices_S2000x6_o0_4_S2000x1 : S2000x6.Slices ![0, 4] S2000x1
  inb_S2000x6x128_S2000x1x128_0_5_0 : ∀ a, (![0, 5, 0] : Fin 3 → Nat) a + S2000x1x128.size a ≤ S2000x6x128.size a
  slices_S2000x6_o0_5_S2000x1 : S2000x6.Slices ![0, 5] S2000x1
  gather_S200000x128_S200000x1_S200000x128_1_0_n_n_0_1_1128_wf : GatherDims.WF S200000x128 S200000x1 S200000x128 [1] [0] [] [0] [] 1 ![1, 128]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6x128.size a ≤ S200000x6x128.size a
  hwx0_1 : ∀ i : grid0.Coords, EltTy.bits .f32 = 32 ∨ (Rect.block (s := S200000x6x128) S2000x6x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x6.size a ≤ S200000x6.size a
  hwx0_2 : ∀ i : grid0.Coords, EltTy.bits .f32 = 32 ∨ (Rect.block (s := S200000x6) S2000x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S200000x128.size a
  hwx0_10 : ∀ i : grid0.Coords, EltTy.bits .f32 = 32 ∨ (Rect.block (s := S200000x128) S2000x128.size (cc0_transform_10 i) (hinb0_10 i)).WholeWords (EltTy.packing .f32)

variable [Facts₀]

def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x6x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000x128 : Shape := ⟨2, ![200000, 128]⟩
abbrev S200000x6x128 : Shape := ⟨3, ![200000, 6, 128]⟩
abbrev S200000x6 : Shape := ⟨2, ![200000, 6]⟩
abbrev S200000 : Shape := ⟨1, ![200000]⟩
abbrev S128x128 : Shape := ⟨2, ![128, 128]⟩
abbrev S128 : Shape := ⟨1, ![128]⟩
abbrev S1x128 : Shape := ⟨2, ![1, 128]⟩
abbrev S200000x1x128 : Shape := ⟨3, ![200000, 1, 128]⟩
abbrev S_ : Shape := ⟨0, ![]⟩
abbrev S200000x1 : Shape := ⟨2, ![200000, 1]⟩
abbrev S200000x8x128 : Shape := ⟨3, ![200000, 8, 128]⟩
abbrev S200000x8 : Shape := ⟨2, ![200000, 8]⟩
abbrev S200000x8x1 : Shape := ⟨3, ![200000, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x6x128, .f32⟩
  | .hbm, ⟨2, _⟩ => ⟨S200000x6, .i1⟩
  | .hbm, ⟨3, _⟩ => ⟨S200000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S200000x128, .f32⟩
  | .hbm, ⟨11, _⟩ => ⟨S1x128, .f32⟩
  | .hbm, ⟨12, _⟩ => ⟨S200000x128, .f32⟩
  | .hbm, ⟨13, _⟩ => ⟨S200000x128, .f32⟩
  | .hbm, ⟨14, _⟩ => ⟨S200000x1x128, .f32⟩
  | .hbm, ⟨15, _⟩ => ⟨S200000x128, .f32⟩
  | .hbm, ⟨16, _⟩ => ⟨S1x128, .f32⟩
  | .hbm, ⟨17, _⟩ => ⟨S200000x128, .f32⟩
  | .hbm, ⟨18, _⟩ => ⟨S200000x128, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x128, .f32⟩
  | .hbm, ⟨28, _⟩ => ⟨S200000x1x128, .f32⟩
  | .hbm, ⟨29, _⟩ => ⟨S_, .i1⟩
  | .hbm, ⟨30, _⟩ => ⟨S200000x1, .i1⟩
  | .hbm, ⟨31, _⟩ => ⟨S200000x8x128, .f32⟩
  | .hbm, ⟨32, _⟩ => ⟨S200000x8, .i1⟩
  | .hbm, ⟨33, _⟩ => ⟨S200000x8x1, .i1⟩
  | .hbm, ⟨34, _⟩ => ⟨S_, .f32⟩
  | .hbm, ⟨35, _⟩ => ⟨S_, .f32⟩
  | .hbm, ⟨36, _⟩ => ⟨S200000x8x128, .i1⟩
  | .hbm, ⟨37, _⟩ => ⟨S200000x8x128, .f32⟩
  | .hbm, ⟨38, _⟩ => ⟨S200000x8x128, .f32⟩
  | .hbm, ⟨39, _⟩ => ⟨S_, .f32⟩
  | .hbm, ⟨40, _⟩ => ⟨S200000x128, .f32⟩
  | .hbm, ⟨41, _⟩ => ⟨S200000x128, .f32⟩
  | .hbm, ⟨42, _⟩ => ⟨S1x128, .f32⟩
  | .hbm, ⟨43, _⟩ => ⟨S200000x128, .f32⟩
  | .hbm, ⟨44, _⟩ => ⟨S200000x128, .f32⟩
  | .hbm, ⟨45, _⟩ => ⟨S200000x8, .i32⟩
  | .hbm, ⟨46, _⟩ => ⟨S_, .i32⟩
  | .hbm, ⟨47, _⟩ => ⟨S200000, .i32⟩
  | .hbm, ⟨48, _⟩ => ⟨S_, .i32⟩
  | .hbm, ⟨49, _⟩ => ⟨S200000, .i32⟩
  | .hbm, ⟨50, _⟩ => ⟨S200000, .i1⟩
  | .hbm, ⟨51, _⟩ => ⟨S200000x1, .i1⟩
  | .hbm, ⟨52, _⟩ => ⟨S_, .f32⟩
  | .hbm, ⟨53, _⟩ => ⟨S_, .f32⟩
  | .hbm, ⟨54, _⟩ => ⟨S200000x128, .i1⟩
  | .hbm, ⟨55, _⟩ => ⟨S200000x128, .f32⟩
  | .hbm, ⟨56, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S200000x128_S200000x1x128_0_2 : S200000x128.BroadcastsInDim S200000x1x128 (![0, 2] : Fin 2 → Fin S200000x1x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  concatenates_S200000x6x128_S200000x1x128_S200000x1x128_S200000x8x128_d1 : Shape.Concatenates [S200000x6x128, S200000x1x128, S200000x1x128] S200000x8x128 1
  concatenates_S200000x6_S200000x1_S200000x1_S200000x8_d1 : Shape.Concatenates [S200000x6, S200000x1, S200000x1] S200000x8 1
  bcast_S200000x8_S200000x8x1_0_1 : S200000x8.BroadcastsInDim S200000x8x1 (![0, 1] : Fin 2 → Fin S200000x8x1.rank)
  bcast_S200000x8x1_S200000x8x128_0_1_2 : S200000x8x1.BroadcastsInDim S200000x8x128 (![0, 1, 2] : Fin 3 → Fin S200000x8x128.rank)
  bcast_S_S200000x8x128 : S_.BroadcastsInDim S200000x8x128 (![] : Fin 0 → Fin S200000x8x128.rank)
  reducesTo_S200000x8x128_S200000x128_d1 : S200000x8x128.ReducesTo [1] S200000x128
  h_S_ : 0 < S_.numel
  natLt_1_32 : 1 < 32
  reducesTo_S200000x8_S200000_d1 : S200000x8.ReducesTo [1] S200000
  bcast_S200000x1_S200000x128_0_1 : S200000x1.BroadcastsInDim S200000x128 (![0, 1] : Fin 2 → Fin S200000x128.rank)
  bcast_S_S200000x128 : S_.BroadcastsInDim S200000x128 (![] : Fin 0 → Fin S200000x128.rank)
  dot_S200000x128_S128x128_S200000x128_1_0_0_1_n_n_wf : DotDims.WF S200000x128 S128x128 S200000x128 [1] [0] [0] [1] [] []
  gather_S200000x128_S200000x1_S200000x128_1_0_n_n_0_1_1128_wf : GatherDims.WF S200000x128 S200000x1 S200000x128 [1] [0] [] [0] [] 1 ![1, 128]

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf

class Facts : Prop extends Facts₀ where

variable [Facts]
-- ==== Proof.RefRunLemmas.lean ====
/-
  Reading the reference program's list of host operations: two facts about its values that the general reading of a
  straight line of operations does not supply.

  * A concatenation of three arrays writes a function of the three operands' contents. Stated with each operand's
    contents at its own buffer (`main_v18_result'`, `main_v19_result'`), and with the concatenation itself as a plain
    function of three arrays (`cat18`, `cat19`: none of its arguments has a type that mentions another), the contents
    of the operands can in turn be read off the operations before it.
  * A value that passes through a buffer of one of the two outlined selection functions is carried to that buffer's
    type and back. The buffer's type is the value's type, so carrying there and back is the identity (`ofBuf_toBuf`),
    and so is each single carry (`toBuf_…`, `ofBuf_…`, one per buffer where a single carry occurs).
-/
import proofs.«129539_j86139864089509_1_alg».proof.Proof.Gen.ReferenceIdeal
import Idealize.ShloMosaic.Lib.StableHlo.Run

noncomputable section

namespace Cert.Agg.RefRun

open Cert.ReferenceIdeal Cert.ReferenceIdeal.Gen Idealize.ShloMosaic Idealize.ShloMosaic.TcCoe Idealize.SL.Sem Idealize.ShloMosaic.StableHlo

variable {F : FTy → Type} [FloatOps F]

/-- The messages, the self message and the parallel message joined along the message axis: eight messages per node. -/
def cat18 (a : (⟨S200000x6x128, .f32⟩ : BufTy).Contents (Elt F)) (b c : (⟨S200000x1x128, .f32⟩ : BufTy).Contents (Elt F)) :
    (⟨S200000x8x128, .f32⟩ : BufTy).Contents (Elt F) :=
  concatenate S200000x8x128 1 [⟨S200000x6x128, a⟩, ⟨S200000x1x128, b⟩, ⟨S200000x1x128, c⟩] concatenates_S200000x6x128_S200000x1x128_S200000x1x128_S200000x8x128_d1

/-- The mask and two columns joined along the message axis: eight mask bits per node. -/
def cat19 (a : (⟨S200000x6, .i1⟩ : BufTy).Contents (Elt F)) (b c : (⟨S200000x1, .i1⟩ : BufTy).Contents (Elt F)) :
    (⟨S200000x8, .i1⟩ : BufTy).Contents (Elt F) :=
  concatenate S200000x8 1 [⟨S200000x6, a⟩, ⟨S200000x1, b⟩, ⟨S200000x1, c⟩] concatenates_S200000x6_S200000x1_S200000x1_S200000x8_d1

/-- What the concatenation into `main_v18` writes, from any contents `G` of the buffers: `cat18` of the contents of its
    three operands. -/
theorem main_v18_result' (G : Valuation τ sig (Elt F)) :
    (nary (τ := τ) ![main_arg1, main_v4, main_v16] main_v18 (fun u => concatenate S200000x8x128 1 [⟨S200000x6x128, u 0⟩, ⟨S200000x1x128, u 1⟩, ⟨S200000x1x128, u 2⟩] concatenates_S200000x6x128_S200000x1x128_S200000x1x128_S200000x8x128_d1)).result G (no_index (Proc.devRef .tc main_v18))
      = cat18 (G (Proc.devRef .tc main_arg1)) (G (Proc.devRef .tc main_v4)) (G (Proc.devRef .tc main_v16)) := by
  rw [nary_result]; rfl

/-- What the concatenation into `main_v19` writes: `cat19` of the contents of its three operands. -/
theorem main_v19_result' (G : Valuation τ sig (Elt F)) :
    (nary (τ := τ) ![main_arg2, main_v17, main_v17] main_v19 (fun u => concatenate S200000x8 1 [⟨S200000x6, u 0⟩, ⟨S200000x1, u 1⟩, ⟨S200000x1, u 2⟩] concatenates_S200000x6_S200000x1_S200000x1_S200000x8_d1)).result G (no_index (Proc.devRef .tc main_v19))
      = cat19 (G (Proc.devRef .tc main_arg2)) (G (Proc.devRef .tc main_v17)) (G (Proc.devRef .tc main_v17)) := by
  rw [nary_result]; rfl

/-- Contents carried to a buffer's type and back are the contents. -/
theorem ofBuf_toBuf {T : BufTy} (y : TRef sig T) (v : T.Contents (Elt F)) : y.ofBuf (y.toBuf v) = v := by
  obtain ⟨r, e, h1, h2⟩ := y
  subst e
  rfl

/-! A single carry between a value's type and the type of the buffer that holds it is the identity: the two types are
    equal by computation. One statement per buffer where a single carry occurs. -/
theorem toBuf_main_v32 (V : (⟨S200000x128, .f32⟩ : BufTy).Contents (Elt F)) : (TRef.of (T := ⟨S200000x128, .f32⟩) main_v32).toBuf V = V :=
  eq_of_heq (cast_heq _ _)
theorem toBuf_main_v21 (V : (⟨S200000x8x128, .f32⟩ : BufTy).Contents (Elt F)) : (TRef.of (T := ⟨S200000x8x128, .f32⟩) main_v21).toBuf V = V :=
  eq_of_heq (cast_heq _ _)
theorem ofBuf_main_v31 (V : (⟨S200000x1, .i1⟩ : BufTy).Contents (Elt F)) : (TRef.of (T := ⟨S200000x1, .i1⟩) main_v31).ofBuf V = V :=
  eq_of_heq (cast_heq _ _)
theorem ofBuf_main_cst_5 (V : (⟨S_, .f32⟩ : BufTy).Contents (Elt F)) : (TRef.of (T := ⟨S_, .f32⟩) main_cst_5).ofBuf V = V :=
  eq_of_heq (cast_heq _ _)
theorem ofBuf_main_v26 (V : (⟨S200000x128, .f32⟩ : BufTy).Contents (Elt F)) : (TRef.of (T := ⟨S200000x128, .f32⟩) main_v26).ofBuf V = V :=
  eq_of_heq (cast_heq _ _)
theorem ofBuf_main_v20 (V : (⟨S200000x8x1, .i1⟩ : BufTy).Contents (Elt F)) : (TRef.of (T := ⟨S200000x8x1, .i1⟩) main_v20).ofBuf V = V :=
  eq_of_heq (cast_heq _ _)
theorem ofBuf_main_v18 (V : (⟨S200000x8x128, .f32⟩ : BufTy).Contents (Elt F)) : (TRef.of (T := ⟨S200000x8x128, .f32⟩) main_v18).ofBuf V = V :=
  eq_of_heq (cast_heq _ _)
theorem ofBuf_main_cst (V : (⟨S_, .f32⟩ : BufTy).Contents (Elt F)) : (TRef.of (T := ⟨S_, .f32⟩) main_cst).ofBuf V = V :=
  eq_of_heq (cast_heq _ _)

/-- The contents of every buffer after a straight line of operations, read in one rewriting pass: each operation's
    result at its own buffer is its function of the contents before it, and at any other buffer what was there;
    the two concatenations by the statements above. -/
macro "after_results_simp3" : tactic =>
  `(tactic| (simp (disch := decide) only [after_cons, after_nil,
      nullary_result', unary_result', binary_result', ternary_result', quaternary_result', reshape_result', main_v18_result', main_v19_result',
      unaryIndexed_result', binaryIndexed_result',
      nullary_result_ne', unary_result_ne', binary_result_ne', ternary_result_ne', quaternary_result_ne', reshape_result_ne',
      nary_result_ne', unaryIndexed_result_ne', binaryIndexed_result_ne']))

/-- The pass above, then the concatenations unfolded and the carries removed. -/
macro "after_results_casts" : tactic =>
  `(tactic| (after_results_simp3; simp only [cat18, cat19, ofBuf_toBuf, toBuf_main_v32, toBuf_main_v21, ofBuf_main_v31, ofBuf_main_cst_5, ofBuf_main_v26, ofBuf_main_v20, ofBuf_main_v18, ofBuf_main_cst]))

end Cert.Agg.RefRun

end
-- ==== Proof.AggSpec.lean ====
/-
  A message-passing aggregation layer as one function of its arrays, over the extended reals.

  Every node `r` has a feature row `x r`, six neighbour messages `msg r i` with a 0/1 weight `mf r i` each, and the
  feature row `gx r` of one further node. The layer sends `x r` through one affine map and `gx r` through another,
  adds the two images and the weighted messages, and sends the sum through a third affine map:

      out r c = ∑ j, (x r · Ws + bs + gx r · Wp + bp + ∑ i, msg r i · mf r i) j · Wo j c + bo c.

  The sums are written in the order a left-to-right accumulation makes them. Entry `(r, c)` depends on row `r` of
  the four per-node arrays only (`out_congr`), which is what lets a block of rows be computed from the same block of
  each of them.
-/
import Idealize.ShloMosaic.PureOps.Ideal
import Idealize.ShloMosaic.Lib.ValueIdx

noncomputable section

namespace Cert.Agg

open Idealize.ShloMosaic Idealize.ShloMosaic.ValueIdx

/-- The arrays with one row per node, for `N` nodes. -/
abbrev Rows (N : ℕ) := (⟨2, ![N, 128]⟩ : Shape).Idx → EReal
/-- The six messages of every node. -/
abbrev Msgs (N : ℕ) := (⟨3, ![N, 6, 128]⟩ : Shape).Idx → EReal
/-- The six weights of every node. -/
abbrev Wts (N : ℕ) := (⟨2, ![N, 6]⟩ : Shape).Idx → EReal
/-- A square weight matrix. -/
abbrev Mat := (⟨2, ![128, 128]⟩ : Shape).Idx → EReal
/-- A bias, kept as a one-row matrix. -/
abbrev Bias := (⟨2, ![1, 128]⟩ : Shape).Idx → EReal

variable {N : ℕ}

/-- Row `r` of `x` through the affine map `(W, b)`, at column `j`. -/
def lin (x : Rows N) (W : Mat) (b : Bias) (r : Fin N) (j : Fin 128) : EReal :=
  (∑ k : Fin 128, x (ix2 r k) * W (ix2 k j)) + b (ix2 0 j)

/-- The aggregated row of node `r` at column `j`: the two affine images, then the six weighted messages, added
    from the left. -/
def acc (x : Rows N) (msg : Msgs N) (mf : Wts N) (gx : Rows N) (Ws : Mat) (bs : Bias) (Wp : Mat) (bp : Bias)
    (r : Fin N) (j : Fin 128) : EReal :=
  ((((((lin x Ws bs r j + lin gx Wp bp r j) + msg (ix3 r 0 j) * mf (ix2 r 0)) + msg (ix3 r 1 j) * mf (ix2 r 1))
    + msg (ix3 r 2 j) * mf (ix2 r 2)) + msg (ix3 r 3 j) * mf (ix2 r 3)) + msg (ix3 r 4 j) * mf (ix2 r 4))
    + msg (ix3 r 5 j) * mf (ix2 r 5)

/-- The layer's result for node `r` at column `c`. -/
def out (x : Rows N) (msg : Msgs N) (mf : Wts N) (gx : Rows N) (Ws : Mat) (bs : Bias) (Wp : Mat) (bp : Bias)
    (Wo : Mat) (bo : Bias) (r : Fin N) (c : Fin 128) : EReal :=
  (∑ j : Fin 128, acc x msg mf gx Ws bs Wp bp r j * Wo (ix2 j c)) + bo (ix2 0 c)

/-- The result for a node depends on that node's rows only: two families of per-node arrays that agree on the rows
    of `r` and `r'` give the same result there. -/
theorem out_congr {N' : ℕ} (x : Rows N) (msg : Msgs N) (mf : Wts N) (gx : Rows N)
    (x' : Rows N') (msg' : Msgs N') (mf' : Wts N') (gx' : Rows N')
    (Ws : Mat) (bs : Bias) (Wp : Mat) (bp : Bias) (Wo : Mat) (bo : Bias) (r : Fin N) (r' : Fin N')
    (hx : ∀ k, x (ix2 r k) = x' (ix2 r' k)) (hm : ∀ i j, msg (ix3 r i j) = msg' (ix3 r' i j))
    (hf : ∀ i, mf (ix2 r i) = mf' (ix2 r' i)) (hg : ∀ k, gx (ix2 r k) = gx' (ix2 r' k)) (c : Fin 128) :
    out x msg mf gx Ws bs Wp bp Wo bo r c = out x' msg' mf' gx' Ws bs Wp bp Wo bo r' c := by
  unfold out acc lin
  simp only [hx, hm, hf, hg]

/-- The same with the weight matrices and biases given twice, equal. -/
theorem out_congr_all {N' : ℕ} (x : Rows N) (msg : Msgs N) (mf : Wts N) (gx : Rows N)
    (x' : Rows N') (msg' : Msgs N') (mf' : Wts N') (gx' : Rows N')
    (Ws : Mat) (bs : Bias) (Wp : Mat) (bp : Bias) (Wo : Mat) (bo : Bias)
    (Ws' : Mat) (bs' : Bias) (Wp' : Mat) (bp' : Bias) (Wo' : Mat) (bo' : Bias) (r : Fin N) (r' : Fin N')
    (hx : ∀ k, x (ix2 r k) = x' (ix2 r' k)) (hm : ∀ i j, msg (ix3 r i j) = msg' (ix3 r' i j))
    (hf : ∀ i, mf (ix2 r i) = mf' (ix2 r' i)) (hg : ∀ k, gx (ix2 r k) = gx' (ix2 r' k))
    (hWs : Ws = Ws') (hbs : bs = bs') (hWp : Wp = Wp') (hbp : bp = bp') (hWo : Wo = Wo') (hbo : bo = bo')
    (c : Fin 128) :
    out x msg mf gx Ws bs Wp bp Wo bo r c = out x' msg' mf' gx' Ws' bs' Wp' bp' Wo' bo' r' c := by
  subst hWs hbs hWp hbp hWo hbo
  exact out_congr x msg mf gx x' msg' mf' gx' Ws bs Wp bp Wo bo r r' hx hm hf hg c

/-- The whole result array for 200000 nodes, index by index. -/
def G (x : Rows 200000) (msg : Msgs 200000) (mf : Wts 200000) (gx : Rows 200000) (Ws : Mat) (bs : Bias) (Wp : Mat)
    (bp : Bias) (Wo : Mat) (bo : Bias) : Rows 200000 :=
  fun i => out x msg mf gx Ws bs Wp bp Wo bo ⟨(i 0).val, (i 0).isLt⟩ ⟨(i 1).val, (i 1).isLt⟩

theorem G_apply (x : Rows 200000) (msg : Msgs 200000) (mf : Wts 200000) (gx : Rows 200000) (Ws : Mat) (bs : Bias)
    (Wp : Mat) (bp : Bias) (Wo : Mat) (bo : Bias) (r : Fin 200000) (c : Fin 128) :
    G x msg mf gx Ws bs Wp bp Wo bo (ix2 r c) = out x msg mf gx Ws bs Wp bp Wo bo r c := rfl

/-- A one-bit word as a number: `0` or `1`. -/
def bit (b : BitVec 1) : EReal := ((b.toNat : ℝ) : EReal)

theorem bit_zero : bit 0#1 = 0 := by simp [bit]
theorem bit_one : bit 1#1 = 1 := by simp [bit]

/-- Keeping a value where a bit is set and taking zero elsewhere is multiplying by the bit. -/
theorem select_zero_eq_mul_bit (b : BitVec 1) (a : EReal) : Scalar.select b a 0 = a * bit b := by
  rcases BitVec.eq_zero_or_eq_one b with h | h <;> subst h
  · rw [select_zero, bit_zero, mul_zero]
  · rw [select_one, bit_one, mul_one]

/-! ## The layer on its arguments

The mask comes as one bit per message, the biases as vectors, and the further node of `r` as a 32-bit index: a
negative index counts from the end of the table (200000 is added), and the index is then clamped into the table. -/

/-- The row a signed 32-bit index names: 200000 added if it is negative, then clamped into `[0, 199999]`. -/
def normRow (w : BitVec 32) : Fin 200000 :=
  ⟨min (Scalar.select (IntOp.cmpi .slt w 0#32) (IntOp.addi w 200000#32) w).toInt.toNat (200000 - 1), by omega⟩

/-- The gathered features: row `r` is the feature row the index of `r` names. -/
def gathered (x : Rows 200000) (idx : (⟨1, ![200000]⟩ : Shape).Idx → BitVec 32) : Rows 200000 :=
  fun i => x (ix2 (normRow (idx (ix1 ⟨(i 0).val, (i 0).isLt⟩))) ⟨(i 1).val, (i 1).isLt⟩)

/-- The weights of the messages: each mask bit as `0` or `1`. -/
def weights (mask : (⟨2, ![200000, 6]⟩ : Shape).Idx → BitVec 1) : Wts 200000 := fun i => bit (mask i)

/-- A bias vector as a one-row matrix. -/
def biasRow (b : (⟨1, ![128]⟩ : Shape).Idx → EReal) : Bias := fun i => b (ix1 ⟨(i 1).val, (i 1).isLt⟩)

/-- THE LAYER as one function of the ten arguments. -/
def Gargs (x : Rows 200000) (msg : Msgs 200000) (mask : (⟨2, ![200000, 6]⟩ : Shape).Idx → BitVec 1)
    (idx : (⟨1, ![200000]⟩ : Shape).Idx → BitVec 32) (Ws : Mat) (bs : (⟨1, ![128]⟩ : Shape).Idx → EReal) (Wp : Mat)
    (bp : (⟨1, ![128]⟩ : Shape).Idx → EReal) (Wo : Mat) (bo : (⟨1, ![128]⟩ : Shape).Idx → EReal) : Rows 200000 :=
  G x msg (weights mask) (gathered x idx) Ws (biasRow bs) Wp (biasRow bp) Wo (biasRow bo)

end Cert.Agg

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibColumnBroadcast.lean ====
/-
  A column broadcast across a row axis, read at an index given by coordinates.

  The library reads a broadcast at an index `j` as the operand at `j`'s trailing coordinates with `0` on the
  operand's unit axes, and has the case of ONE ROW `[1, b] → [a, b]` by coordinates. This is the companion case of ONE
  COLUMN `[a, 1] → [a, b]` (a per-row quantity kept with a trailing unit axis and spread along the row): entry
  `(p, c)` of the result is the column's entry in row `p`, whatever `c` is.
-/
import Idealize.ShloMosaic.Lib.ValueLayout

namespace Cert.Layout

open Idealize.ShloMosaic Idealize.ShloMosaic.ValueIdx

variable {α : Type}

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.AggBody.lean ====
/-
  One block of rows of the aggregation kernel, entry by entry.

  The kernel body works on a block of 2000 nodes: it multiplies the block of feature rows and the block of gathered
  rows by their weight matrices (the narrowing of the float format in front of each product is the identity on the
  extended reals), adds the biases, adds the six messages of each node one after the other, each multiplied by its
  weight column spread along the row, and sends the sum through the output matrix and bias. Entry `(p, q)` of what it
  stores is `Cert.Agg.out` of the blocks at row `p`, column `q`.
-/
import proofs.«129539_j86139864089509_1_alg».proof.Proof.Gen.KernelIdeal.Frame
import proofs.«129539_j86139864089509_1_alg».proof.Proof.AggSpec
import proofs.«129539_j86139864089509_1_alg».proof.Proof.LibPlainMatmul
import proofs.«129539_j86139864089509_1_alg».proof.Proof.LibColumnBroadcast
import proofs.«129539_j86139864089509_1_alg».proof.Proof.LibRows
import Idealize.ShloMosaic.Lib.Pipeline.Value
import Idealize.ShloMosaic.Lib.ValueIdx
import Idealize.ShloMosaic.PureOps.Ideal.Laws

noncomputable section

namespace Cert.Agg.Body

open Idealize.ShloMosaic Idealize.ShloMosaic.ValueIdx Cert.KernelIdeal Cert.KernelIdeal.Gen

theorem hz2 : (![0, 0] : Fin 2 → Nat) = fun _ => 0 := funext fun a => by fin_cases a <;> rfl

/-- An affine tile: the product of a block of rows with a weight matrix, accumulated from zero, plus a bias row
    spread down the block, is at `(p, q)` the sum over `k` of `l (p, k) · W (k, q)` plus `b (0, q)`. -/
theorem affine_tile (l : FVec Ideal S2000x128 .f32) (W : FVec Ideal S128x128 .f32) (b : FVec Ideal S1x128 .f32)
    (p : Fin 2000) (q : Fin 128) :
    matmul dot_S2000x128_S128x128_S2000x128_1_0_0_1_n_n none (truncf .bf16 l bitsLt_bf16_f32)
        (truncf .bf16 W bitsLt_bf16_f32) (constant (F := Ideal) S2000x128 .f32 0x00000000#32) (ix2 p q)
      + broadcastTo S2000x128 (shapeCast S1x128 b shapeCasts_S1x128_S1x128) broadcasts_S1x128_S2000x128 (ix2 p q)
    = (∑ k : Fin 128, l (ix2 p k) * W (ix2 k q)) + b (ix2 0 q) := by
  rw [shapeCast_self, Cert.Rows.bcast_row (by decide) b broadcasts_S1x128_S2000x128 p q]
  exact congrArg (· + b (ix2 0 q)) (Cert.LibPlainMatmul.matmul_zero_apply
    dot_S2000x128_S128x128_S2000x128_1_0_0_1_n_n rfl rfl rfl rfl rfl rfl none _ _ p q)

/-- One weighted message: message `o` of every node of the block, read as a matrix, times weight column `o` spread
    along the rows, is at `(p, q)` the product `x1 (p, o, q) · x2 (p, o)`. -/
theorem weighted_msg (x1 : Vec Ideal S2000x6x128 .f32) (x2 : Vec Ideal S2000x6 .f32) (o : ℕ) (ho : o < 6)
    (inb : ∀ a, (![0, o, 0] : Fin 3 → Nat) a + S2000x1x128.size a ≤ S2000x6x128.size a)
    (hs : S2000x6.Slices ![0, o] S2000x1) (p : Fin 2000) (q : Fin 128) :
    (shapeCast S2000x128 (View.ld x1 (Rect.unit (s := S2000x6x128) ![0, o, 0] S2000x1x128.size inb))
        shapeCasts_S2000x1x128_S2000x128 (ix2 p q) : EReal)
      * (broadcastTo S2000x128 (extractStridedSlice S2000x1 ![0, o] (shapeCast S2000x6 x2 shapeCasts_S2000x6_S2000x6) hs)
        broadcasts_S2000x1_S2000x128 (ix2 p q) : EReal)
    = (x1 (ix3 p ⟨o, ho⟩ q) : EReal) * (x2 (ix2 p ⟨o, ho⟩) : EReal) := by
  refine congrArg₂ (· * ·) ?_ ?_
  · refine (shapeCast_apply _ shapeCasts_S2000x1x128_S2000x128 (ix2 p q) (ix3 p (0 : Fin 1) q) ?_).trans ?_
    · rw [Shape.rowMajor_val_three, Shape.rowMajor_val_two]
      show (p.val * 1 + 0) * 128 + q.val = p.val * 128 + q.val
      omega
    · refine congrArg x1 (funext fun a => Fin.ext ?_)
      match a with
      | ⟨0, _⟩ => show 0 + 1 * p.val = p.val; omega
      | ⟨1, _⟩ => show o + 1 * 0 = o; omega
      | ⟨2, _⟩ => show 0 + 1 * q.val = q.val; omega
  · rw [Cert.Layout.broadcastTo_a1_ab_apply, shapeCast_self]
    exact extractStridedSlice_apply _ x2 hs (ix2 p (0 : Fin 1)) (ix2 p ⟨o, ho⟩) (fun a => by
      match a with
      | ⟨0, _⟩ => show p.val = 0 + p.val; omega
      | ⟨1, _⟩ => show o = o + 0; omega)

set_option pp.maxSteps 30000 in
set_option pp.proofs false in
/-- What the body stores, at `(p, q)`. -/
theorem out0_10_apply (x0 : Vec Ideal S2000x128 .f32) (x1 : Vec Ideal S2000x6x128 .f32) (x2 : Vec Ideal S2000x6 .f32)
    (x3 : Vec Ideal S2000x128 .f32) (x4 : Vec Ideal S128x128 .f32) (x5 : Vec Ideal S1x128 .f32)
    (x6 : Vec Ideal S128x128 .f32) (x7 : Vec Ideal S1x128 .f32) (x8 : Vec Ideal S128x128 .f32)
    (x9 : Vec Ideal S1x128 .f32) (p : Fin 2000) (q : Fin 128) :
    out0_10 x0 x1 x2 x3 x4 x5 x6 x7 x8 x9 (ix2 p q) = Cert.Agg.out (N := 2000) x0 x1 x2 x3 x4 x5 x6 x7 x8 x9 p q := by
  unfold out0_10
  rw [View.canon_unit_zero hz2]
  simp only [View.ld_unit_zero (S := S2000x128) hz2, View.ld_unit_zero (S := S128x128) hz2,
    View.ld_unit_zero (S := S1x128) hz2, View.ld_unit_zero (S := S2000x6) hz2]
  unfold k0_pay1 k0_pay2 k0_pay4 k0_pay5 k0_pay3
  dsimp only
  simp only [addf_apply]
  refine (affine_tile _ x8 x9 p q).trans ?_
  unfold Cert.Agg.out
  refine congrArg (· + x9 (ix2 0 q)) (Finset.sum_congr rfl fun j _ => congrArg (· * x8 (ix2 j q)) ?_)
  unfold Cert.Agg.acc Cert.Agg.lin
  simp only [addf_apply, mulf_apply]
  exact congrArg₂ (· + ·) (congrArg₂ (· + ·) (congrArg₂ (· + ·) (congrArg₂ (· + ·) (congrArg₂ (· + ·) (congrArg₂ (· + ·)
    (congrArg₂ (· + ·) (affine_tile x0 x4 x5 p j)
      ((affine_tile (shapeCast S2000x128 x3 shapeCasts_S2000x128_S2000x128) x6 x7 p j).trans (by rw [shapeCast_self])))
    (weighted_msg x1 x2 0 (by decide) _ _ p j)) (weighted_msg x1 x2 1 (by decide) _ _ p j))
    (weighted_msg x1 x2 2 (by decide) _ _ p j)) (weighted_msg x1 x2 3 (by decide) _ _ p j))
    (weighted_msg x1 x2 4 (by decide) _ _ p j)) (weighted_msg x1 x2 5 (by decide) _ _ p j)

end Cert.Agg.Body

end
-- ==== Proof.AggBlocks.lean ====
/-
  From the blocks to the whole array.

  The kernel runs at 100 grid points. At point `t` it is given rows `2000·t … 2000·t + 1999` of the four per-node
  arrays (features, messages, weights of the messages, gathered features) and the whole of each weight matrix and
  bias, and writes back rows `2000·t … 2000·t + 1999` of the result. Since entry `(r, c)` of `Cert.Agg.G` depends on
  row `r` of the per-node arrays only, what point `t` writes back is block `t` of `G` of the whole arrays; the 100
  blocks tile the 200000 rows, so the result array ends as `G`.
-/
import proofs.«129539_j86139864089509_1_alg».proof.Proof.Gen.KernelIdeal.Value
import proofs.«129539_j86139864089509_1_alg».proof.Proof.AggBody

noncomputable section

namespace Cert.Agg.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as a function of the ten arrays the kernel is launched on, as it finds them. -/
abbrev Gv (c : Dev nD) : S200000x128.Idx → EReal :=
  Cert.Agg.G (V m c main_arg0) (V m c main_arg1) (V m c main_v7) (V m c main_v6) (V m c main_arg4) (V m c main_v8)
    (V m c main_arg6) (V m c main_v9) (V m c main_arg8) (V m c main_v10)

/-- The block index maps over the grid: the four per-node windows move with the output's row block, the weight
    matrices and biases stay at their one block, and the output's row block stays below 100. -/
theorem idx_facts : ∀ t : Fin cfg0.N,
    win0_0.index t (0 : Fin 2) = win0_10.index t (0 : Fin 2) ∧ win0_0.index t (1 : Fin 2) = 0
    ∧ win0_1.index t (0 : Fin 3) = win0_10.index t (0 : Fin 2) ∧ win0_1.index t (1 : Fin 3) = 0 ∧ win0_1.index t (2 : Fin 3) = 0
    ∧ win0_2.index t (0 : Fin 2) = win0_10.index t (0 : Fin 2) ∧ win0_2.index t (1 : Fin 2) = 0
    ∧ win0_3.index t (0 : Fin 2) = win0_10.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (1 : Fin 2) = 0 ∧ win0_10.index t (0 : Fin 2) ≤ 99 :=
  (by decide +kernel : ∀ t : Fin grid0.N, _)

/-- Every row block is some point's. -/
theorem idx_onto : ∀ q0 : Fin 100, ∃ t : Fin cfg0.N, win0_10.index t = ![q0.val, 0] :=
  (by decide +kernel : ∀ q0 : Fin 100, ∃ t : Fin grid0.N, win0_10.index t = ![q0.val, 0])

/-! ## Each window's block at a point, read off its array -/

/-- Row `p` of the feature block at point `t` is row `r = 2000·t + p` of the features. -/
theorem blk0 (c : Dev nD) (t : Fin cfg0.N) (r : Fin 200000) (p : Fin 2000)
    (hr : r.val = win0_10.index t (0 : Fin 2) * 2000 + p.val) (k : Fin 128) :
    iblk m c 0 t (ix2 p k) = V m c main_arg0 (ix2 r k) := by
  obtain ⟨f00, f01, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The messages of node `p` of the block at point `t` are those of node `r = 2000·t + p`. -/
theorem blk1 (c : Dev nD) (t : Fin cfg0.N) (r : Fin 200000) (p : Fin 2000)
    (hr : r.val = win0_10.index t (0 : Fin 2) * 2000 + p.val) (i : Fin 6) (j : Fin 128) :
    iblk m c 1 t (ix3 p i j) = V m c main_arg1 (ix3 r i j) := by
  obtain ⟨-, -, f10, f11, f12, -⟩ := idx_facts t
  show V m c main_arg1 (((cfg0.win 1).blk t).view.emb (ix3 p i j)) = V m c main_arg1 (ix3 r i j)
  refine congrArg (V m c main_arg1) (funext fun a => Fin.ext ?_)
  match a with
  | ⟨0, _⟩ => show win0_1.index t (0 : Fin 3) * 2000 + 1 * p.val = r.val; omega
  | ⟨1, _⟩ => show win0_1.index t (1 : Fin 3) * 6 + 1 * i.val = i.val; omega
  | ⟨2, _⟩ => show win0_1.index t (2 : Fin 3) * 128 + 1 * j.val = j.val; omega

/-- The message weights of node `p` of the block at point `t` are those of node `r = 2000·t + p`. -/
theorem blk2 (c : Dev nD) (t : Fin cfg0.N) (r : Fin 200000) (p : Fin 2000)
    (hr : r.val = win0_10.index t (0 : Fin 2) * 2000 + p.val) (i : Fin 6) :
    iblk m c 2 t (ix2 p i) = V m c main_v7 (ix2 r i) := by
  obtain ⟨-, -, -, -, -, f20, f21, -⟩ := idx_facts t
  show V m c main_v7 (((cfg0.win 2).blk t).view.emb (ix2 p i)) = V m c main_v7 (ix2 r i)
  refine congrArg (V m c main_v7) (funext fun a => Fin.ext ?_)
  match a with
  | ⟨0, _⟩ => show win0_2.index t (0 : Fin 2) * 2000 + 1 * p.val = r.val; omega
  | ⟨1, _⟩ => show win0_2.index t (1 : Fin 2) * 6 + 1 * i.val = i.val; omega

/-- Row `p` of the gathered block at point `t` is row `r = 2000·t + p` of the gathered features. -/
theorem blk3 (c : Dev nD) (t : Fin cfg0.N) (r : Fin 200000) (p : Fin 2000)
    (hr : r.val = win0_10.index t (0 : Fin 2) * 2000 + p.val) (k : Fin 128) :
    iblk m c 3 t (ix2 p k) = V m c main_v6 (ix2 r k) := by
  obtain ⟨-, -, -, -, -, -, -, f30, f31, -⟩ := idx_facts t
  show V m c main_v6 (((cfg0.win 3).blk t).view.emb (ix2 p k)) = V m c main_v6 (ix2 r k)
  refine congrArg (V m c main_v6) (funext fun a => Fin.ext ?_)
  match a with
  | ⟨0, _⟩ => show win0_3.index t (0 : Fin 2) * 2000 + 1 * p.val = r.val; omega
  | ⟨1, _⟩ => show win0_3.index t (1 : Fin 2) * 128 + 1 * k.val = k.val; omega

/-- Window 4 has one block, the whole array: at every point it is `main_arg4` as the kernel finds it. -/
theorem blk4 (c : Dev nD) (t : Fin cfg0.N) : (iblk m c 4 t : S128x128.Idx → EReal) = V m c main_arg4 := by
  obtain ⟨-, -, -, -, -, -, -, -, -, f40, f41, f50, f51, f60, f61, f70, f71, f80, f81, f90, f91, -, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 has one block, the whole array: at every point it is `main_v8` as the kernel finds it. -/
theorem blk5 (c : Dev nD) (t : Fin cfg0.N) : (iblk m c 5 t : S1x128.Idx → EReal) = V m c main_v8 := by
  obtain ⟨-, -, -, -, -, -, -, -, -, f40, f41, f50, f51, f60, f61, f70, f71, f80, f81, f90, f91, -, -⟩ := idx_facts t
  funext y
  show V m c main_v8 (((cfg0.win 5).blk t).view.emb y) = V m c main_v8 y
  refine congrArg (V m c main_v8) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 has one block, the whole array: at every point it is `main_arg6` as the kernel finds it. -/
theorem blk6 (c : Dev nD) (t : Fin cfg0.N) : (iblk m c 6 t : S128x128.Idx → EReal) = V m c main_arg6 := by
  obtain ⟨-, -, -, -, -, -, -, -, -, f40, f41, f50, f51, f60, f61, f70, f71, f80, f81, f90, f91, -, -⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7 has one block, the whole array: at every point it is `main_v9` as the kernel finds it. -/
theorem blk7 (c : Dev nD) (t : Fin cfg0.N) : (iblk m c 7 t : S1x128.Idx → EReal) = V m c main_v9 := by
  obtain ⟨-, -, -, -, -, -, -, -, -, f40, f41, f50, f51, f60, f61, f70, f71, f80, f81, f90, f91, -, -⟩ := idx_facts t
  funext y
  show V m c main_v9 (((cfg0.win 7).blk t).view.emb y) = V m c main_v9 y
  refine congrArg (V m c main_v9) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8 has one block, the whole array: at every point it is `main_arg8` as the kernel finds it. -/
theorem blk8 (c : Dev nD) (t : Fin cfg0.N) : (iblk m c 8 t : S128x128.Idx → EReal) = V m c main_arg8 := by
  obtain ⟨-, -, -, -, -, -, -, -, -, f40, f41, f50, f51, f60, f61, f70, f71, f80, f81, f90, f91, -, -⟩ := idx_facts t
  funext y
  show V m c main_arg8 (((cfg0.win 8).blk t).view.emb y) = V m c main_arg8 y
  refine congrArg (V m c main_arg8) (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9 has one block, the whole array: at every point it is `main_v10` as the kernel finds it. -/
theorem blk9 (c : Dev nD) (t : Fin cfg0.N) : (iblk m c 9 t : S1x128.Idx → EReal) = V m c main_v10 := by
  obtain ⟨-, -, -, -, -, -, -, -, -, f40, f41, f50, f51, f60, f61, f70, f71, f80, f81, f90, f91, -, -⟩ := idx_facts t
  funext y
  show V m c main_v10 (((cfg0.win 9).blk t).view.emb y) = V m c main_v10 y
  refine congrArg (V m c main_v10) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-! ## What a point writes back, the cover, the array -/

/-- WHAT POINT `t` WRITES BACK is block `t` of `G` of the arrays as the kernel finds them. -/
theorem flushed_eq (c : Dev nD) (t : Fin cfg0.N) :
    (dats m 0 c).flushed 10 t = ((cfg0.win 10).blk t).view.read (Elt Ideal) (Gv m c) := by
  rw [Cert.KernelIdeal.Value.flushed10]
  obtain ⟨-, -, -, -, -, -, -, -, -, -, -, -, -, -, -, -, -, -, -, -, -, f101, hle⟩ := idx_facts t
  funext y
  obtain ⟨p, q, rfl⟩ : ∃ (p : Fin 2000) (q : Fin 128), y = ix2 p q := ⟨y 0, y 1, eq_ix2 y⟩
  have hlt : win0_10.index t (0 : Fin 2) * 2000 + p.val < 200000 := by have := p.isLt; omega
  have hemb : ((cfg0.win 10).blk t).view.emb (ix2 p q)
      = ix2 (⟨win0_10.index t (0 : Fin 2) * 2000 + p.val, hlt⟩ : Fin 200000) q := by
    funext a; apply Fin.ext
    match a with
    | ⟨0, _⟩ => show win0_10.index t (0 : Fin 2) * 2000 + 1 * p.val = win0_10.index t (0 : Fin 2) * 2000 + p.val; omega
    | ⟨1, _⟩ => show win0_10.index t (1 : Fin 2) * 128 + 1 * q.val = q.val; omega
  show out0_10 (iblk m c 0 t) (iblk m c 1 t) (iblk m c 2 t) (iblk m c 3 t) (iblk m c 4 t) (iblk m c 5 t) (iblk m c 6 t)
      (iblk m c 7 t) (iblk m c 8 t) (iblk m c 9 t) (ix2 p q) = Gv m c (((cfg0.win 10).blk t).view.emb (ix2 p q))
  rw [hemb]
  refine (Cert.Agg.Body.out0_10_apply (iblk m c 0 t) (iblk m c 1 t) (iblk m c 2 t) (iblk m c 3 t) (iblk m c 4 t)
    (iblk m c 5 t) (iblk m c 6 t) (iblk m c 7 t) (iblk m c 8 t) (iblk m c 9 t) p q).trans ?_
  exact Cert.Agg.out_congr_all _ _ _ _ _ _ _ _ _ _ _ _ _ _ _ _ _ _ _ _ p ⟨_, hlt⟩
    (blk0 m c t ⟨_, hlt⟩ p rfl) (blk1 m c t ⟨_, hlt⟩ p rfl) (blk2 m c t ⟨_, hlt⟩ p rfl) (blk3 m c t ⟨_, hlt⟩ p rfl)
    (blk4 m c t) (blk5 m c t) (blk6 m c t) (blk7 m c t) (blk8 m c t) (blk9 m c t) q

/-- An index of the result array is in point `t`'s block iff each coordinate is in the block's range on its axis. -/
theorem mem_blk (t : Fin cfg0.N) (i : S200000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v11).slice (win0_10.rect t)).set ↔ _
  rw [View.set_slice_whole, Rect.mem_set_unit]
  exact Iff.rfl

/-- Every index of the result array is in some point's block: row `r` is in block `r / 2000`. -/
theorem cover (i : S200000x128.Idx) :
    ∃ t : Fin cfg0.N, (cfg0.win 10).flush t = true ∧ i ∈ ((cfg0.win 10).blk t).view.set := by
  have hi0 : (i 0).val < 200000 := (i 0).isLt
  have hi1 : (i 1).val < 128 := (i 1).isLt
  obtain ⟨t, ht⟩ := idx_onto ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 2000 ≤ (i 0).val ∧ (i 0).val < win0_10.index t (0 : Fin 2) * 2000 + 2000
    omega
  | ⟨1, _⟩ =>
    show win0_10.index t (1 : Fin 2) * 128 ≤ (i 1).val ∧ (i 1).val < win0_10.index t (1 : Fin 2) * 128 + 128
    omega

/-- THE RESULT ARRAY after the run is `G` of the arrays as the kernel finds them. -/
theorem final (c : Dev nD) : (dats m 0 c).arrAt 10 cfg0.N = Gv m c :=
  (dats m 0 c).arrAt_eq_of_cover 10 (Gv m c) (fun t _ => flushed_eq m c t) cover

/-- The kernel's run re-posted: the result array at `G`, the arguments unchanged. -/
theorem run : θ_run defs (onTc (τ := τ) (main (F := Ideal))) ⟨m, fun _ => 0, ρ⟩ fun r => ∀ c : Dev nD,
      r.2.mem ((c : Thread nD τ).loc main_v11) = Gv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.Agg.Blocks

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.AggHost.lean ====
/-
  The arrays the kernel is launched on, in terms of the arguments.

  Before the kernel runs, the program gathers the feature rows by the node index (a negative index first has 200000
  added; the gather clamps the row into the table), converts the mask bits to the numbers 0 and 1, and recasts each
  bias vector as a one-row matrix. So the result array, `Cert.Agg.G` of the arrays as the kernel finds them, is
  `Cert.Agg.Gargs` of the ten arguments.
-/
import proofs.«129539_j86139864089509_1_alg».proof.Proof.Gen.KernelIdeal.Frame
import proofs.«129539_j86139864089509_1_alg».proof.Proof.AggSpec
import proofs.«129539_j86139864089509_1_alg».proof.Proof.LibSegmentRows
import Idealize.ShloMosaic.Lib.StableHlo.Run
import Idealize.ShloMosaic.Lib.Pipeline.Value
import Idealize.ShloMosaic.Lib.ValueIdx

noncomputable section

namespace Cert.Agg.Host

open Cert.KernelIdeal Cert.KernelIdeal.Gen Idealize.ShloMosaic Idealize.ShloMosaic.TcCoe Idealize.SL.Sem
open Idealize.ShloMosaic.ValueIdx Idealize.ShloMosaic.StableHlo

/-- The index column the gather reads: the node index with 200000 added where it is negative, as a column. -/
abbrev idxCol (idx : (⟨S200000, .i32⟩ : BufTy).Contents (Elt Ideal)) : (⟨S200000x1, .i32⟩ : BufTy).Contents (Elt Ideal) :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 200000#32))) idx)

/-- The column at row `r` is the scalar normalisation of the index of `r`. -/
theorem idxCol_apply (idx : (⟨S200000, .i32⟩ : BufTy).Contents (Elt Ideal)) (r : Fin 200000) :
    idxCol idx (ix2 r (0 : Fin 1))
      = Scalar.select (IntOp.cmpi .slt (idx (ix1 r)) 0#32) (IntOp.addi (idx (ix1 r)) 200000#32) (idx (ix1 r)) :=
  broadcastInDim_apply ![0] bcast_S200000_S200000x1_0 _ (ix2 r (0 : Fin 1)) (ix1 r) (fun a => by
    match a with
    | ⟨0, _⟩ => show r.val = if (200000 : ℕ) = 1 then 0 else r.val; rw [if_neg (by decide)])

/-- The gather of the feature rows along that column is the gathered features of the specification. -/
theorem gather_eq (x : (⟨S200000x128, .f32⟩ : BufTy).Contents (Elt Ideal))
    (idx : (⟨S200000, .i32⟩ : BufTy).Contents (Elt Ideal)) :
    Host.gather gather_S200000x128_S200000x1_S200000x128_1_0_n_n_0_1_1128 x (idxCol idx) = Cert.Agg.gathered x idx := by
  funext i
  obtain ⟨r, k, rfl⟩ : ∃ (r : Fin 200000) (k : Fin 128), i = ix2 r k := ⟨i 0, i 1, eq_ix2 i⟩
  refine (Cert.SegmentRows.gather_rows_apply (N := 200000) (E := 200000) (C := 128) (by decide)
    gather_S200000x128_S200000x1_S200000x128_1_0_n_n_0_1_1128_wf x (idxCol idx) r k).trans ?_
  have hrow : Cert.SegmentRows.takeRow (N := 200000) (by decide) (idxCol idx) r = Cert.Agg.normRow (idx (ix1 r)) :=
    Fin.ext (by
      show min (idxCol idx (ix2 r (0 : Fin 1))).toInt.toNat (200000 - 1) = _
      rw [idxCol_apply]
      rfl)
  rw [hrow]
  rfl

/-- The mask bits converted to numbers are the weights of the specification. -/
theorem uitofp_eq (mask : (⟨S200000x6, .i1⟩ : BufTy).Contents (Elt Ideal)) :
    uitofp (F := Ideal) .f32 mask = Cert.Agg.weights mask := rfl

/-- A bias vector recast as a one-row matrix is the bias row of the specification. -/
theorem reshape_eq (b : (⟨S128, .f32⟩ : BufTy).Contents (Elt Ideal)) :
    shapeCast S1x128 b shapeCasts_S128_S1x128 = Cert.Agg.biasRow b := by
  funext i
  refine shapeCast_apply b shapeCasts_S128_S1x128 i (ix1 ⟨(i 1).val, (i 1).isLt⟩) ?_
  rw [Shape.rowMajor_val_one, Shape.rowMajor_val_two]
  have h0 : (i 0).val < 1 := (i 0).isLt
  show (i 1).val = (i 0).val * 128 + (i 1).val
  omega

variable (m : (ℓ : Loc nD τ sig) → Buf (Elt Ideal) ℓ)

/-! ## The computed arrays as the kernel finds them -/

theorem V_v6 (c : Dev nD) : (V m c main_v6 : S200000x128.Idx → EReal)
    = Host.gather gather_S200000x128_S200000x1_S200000x128_1_0_n_n_0_1_1128 (m ((c : Thread nD τ).loc main_arg0)) (idxCol (m ((c : Thread nD τ).loc main_arg3))) := by
  dsimp only [V, hostOps0]; after_results; try rfl

theorem V_v7 (c : Dev nD) : (V m c main_v7 : S200000x6.Idx → EReal)
    = uitofp (F := Ideal) .f32 (m ((c : Thread nD τ).loc main_arg2)) := by
  dsimp only [V, hostOps0]; after_results; try rfl

theorem V_v8 (c : Dev nD) : (V m c main_v8 : S1x128.Idx → EReal)
    = shapeCast S1x128 (m ((c : Thread nD τ).loc main_arg5)) shapeCasts_S128_S1x128 := by
  dsimp only [V, hostOps0]; after_results; try rfl

theorem V_v9 (c : Dev nD) : (V m c main_v9 : S1x128.Idx → EReal)
    = shapeCast S1x128 (m ((c : Thread nD τ).loc main_arg7)) shapeCasts_S128_S1x128 := by
  dsimp only [V, hostOps0]; after_results; try rfl

theorem V_v10 (c : Dev nD) : (V m c main_v10 : S1x128.Idx → EReal)
    = shapeCast S1x128 (m ((c : Thread nD τ).loc main_arg9)) shapeCasts_S128_S1x128 := by
  dsimp only [V, hostOps0]; after_results; try rfl

/-- THE RESULT ARRAY in terms of the arguments. -/
theorem G_V_eq (c : Dev nD) :
    Cert.Agg.G (V m c main_arg0) (V m c main_arg1) (V m c main_v7) (V m c main_v6) (V m c main_arg4) (V m c main_v8)
      (V m c main_arg6) (V m c main_v9) (V m c main_arg8) (V m c main_v10)
    = Cert.Agg.Gargs (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) := by
  rw [V_main_arg0 m c, V_main_arg1 m c, V_main_arg4 m c, V_main_arg6 m c, V_main_arg8 m c,
    V_v6 m c, V_v7 m c, V_v8 m c, V_v9 m c, V_v10 m c, gather_eq, uitofp_eq, reshape_eq, reshape_eq, reshape_eq]
  rfl

end Cert.Agg.Host

end
-- ==== Proof.AggRef.lean ====
/-
  The reference program's result is the aggregation layer of its arguments.

  The reference joins, for every node, its six messages, its self message `x r · Ws + bs` and its parallel message
  (row `idx r` of `x · Wp + bp`) into eight messages, joins the six mask bits with two set bits into eight bits,
  replaces every message whose bit is clear by zero, adds the eight up from zero, sends the sum through `(Wo, bo)`,
  and finally replaces a row by zero if none of its eight bits is set.

  * A message kept where its bit is set and replaced by zero elsewhere is the message times the bit; the two joined
    bits are set, so the self and parallel messages are always kept.
  * Row `idx r` of `x · Wp + bp` is row `idx r` of `x`, times `Wp`, plus `bp`: an affine map of rows commutes with
    taking a row.
  * The eight terms added up from zero are, in another order, the sum the kernel accumulates; addition of extended
    reals is commutative and associative, so the order does not matter.
  * Two of the eight bits are always set, so the count of set bits is never zero and no row is replaced.
-/
import proofs.«129539_j86139864089509_1_alg».proof.Proof.RefRead
import proofs.«129539_j86139864089509_1_alg».proof.Proof.AggSpec
import proofs.«129539_j86139864089509_1_alg».proof.Proof.LibSegmentRows
import proofs.«129539_j86139864089509_1_alg».proof.Proof.LibRows
import Idealize.ShloMosaic.Lib.Pipeline.Value
import Idealize.ShloMosaic.Lib.ValueIdx
import Idealize.ShloMosaic.PureOps.Ideal.Laws
import Idealize.ShloMosaic.PureOps.Reduce
import Mathlib.Data.BitVec

noncomputable section

namespace Cert.Agg.Ref

open Cert.ReferenceIdeal Cert.ReferenceIdeal.Gen Cert.ReferenceIdeal.ReadP Idealize.ShloMosaic Idealize.ShloMosaic.ValueIdx

variable (x0 : (⟨S200000x128, .f32⟩ : BufTy).Contents (Elt Ideal)) (x1 : (⟨S200000x6x128, .f32⟩ : BufTy).Contents (Elt Ideal))
  (x2 : (⟨S200000x6, .i1⟩ : BufTy).Contents (Elt Ideal)) (x3 : (⟨S200000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## The eight bits of a node -/

/-- The first six of the eight bits are the mask's. -/
theorem bits_lt (r : Fin 200000) (k : Fin 6) :
    val_main_v19 (F := Ideal) x2 (ix2 r (⟨k.val, by omega⟩ : Fin 8))
      = x2 (ix2 r k) := by
  unfold val_main_v19
  refine concatenate_apply_piece (1 : Fin 2) _ _ (ix2 r (⟨k.val, by omega⟩ : Fin 8)) 0 ?_ S200000x6 x2 ?_ ?_ 0 ?_
    (ix2 r k) ?_ ?_
  · show (0 : ℕ) < 3; omega
  · rfl
  · rfl
  · rfl
  · intro b hb
    match b with
    | ⟨0, _⟩ => rfl
    | ⟨1, _⟩ => exact absurd rfl hb
  · show 0 + k.val = k.val; omega

/-- The seventh bit is set. -/
theorem bits_6 (r : Fin 200000) :
    val_main_v19 (F := Ideal) x2 (ix2 r (6 : Fin 8))
      = 1#1 := by
  unfold val_main_v19
  refine (concatenate_apply_piece (1 : Fin 2) _ _ (ix2 r (6 : Fin 8)) 1 ?_ S200000x1 (val_main_v17 (F := Ideal)) ?_ ?_ 6 ?_
    (ix2 r (0 : Fin 1)) ?_ ?_).trans rfl
  · show (1 : ℕ) < 3; omega
  · rfl
  · rfl
  · rfl
  · intro b hb
    match b with
    | ⟨0, _⟩ => rfl
    | ⟨1, _⟩ => exact absurd rfl hb
  · show 6 + 0 = 6; rfl

/-- The eighth bit is set. -/
theorem bits_7 (r : Fin 200000) :
    val_main_v19 (F := Ideal) x2 (ix2 r (7 : Fin 8))
      = 1#1 := by
  unfold val_main_v19
  refine (concatenate_apply_piece (1 : Fin 2) _ _ (ix2 r (7 : Fin 8)) 2 ?_ S200000x1 (val_main_v17 (F := Ideal)) ?_ ?_ 7 ?_
    (ix2 r (0 : Fin 1)) ?_ ?_).trans rfl
  · show (2 : ℕ) < 3; omega
  · rfl
  · rfl
  · rfl
  · intro b hb
    match b with
    | ⟨0, _⟩ => rfl
    | ⟨1, _⟩ => exact absurd rfl hb
  · show 7 + 0 = 7; rfl

/-! ## The eight messages of a node -/

/-- The first six of the eight messages are the given ones. -/
theorem msgs_lt (r : Fin 200000) (k : Fin 6) (j : Fin 128) :
    val_main_v18 (F := Ideal) x0 x1 x3 x4 x5 x6 x7 (ix3 r (⟨k.val, by omega⟩ : Fin 8) j)
      = x1 (ix3 r k j) := by
  unfold val_main_v18
  refine concatenate_apply_piece (1 : Fin 3) _ _ (ix3 r (⟨k.val, by omega⟩ : Fin 8) j) 0 ?_ S200000x6x128 x1 ?_ ?_ 0 ?_
    (ix3 r k j) ?_ ?_
  · show (0 : ℕ) < 3; omega
  · rfl
  · rfl
  · rfl
  · intro b hb
    match b with
    | ⟨0, _⟩ => rfl
    | ⟨1, _⟩ => exact absurd rfl hb
    | ⟨2, _⟩ => rfl
  · show 0 + k.val = k.val; omega

/-- The seventh is the self message. -/
theorem msgs_6 (r : Fin 200000) (j : Fin 128) :
    val_main_v18 (F := Ideal) x0 x1 x3 x4 x5 x6 x7 (ix3 r (6 : Fin 8) j)
      = val_main_v4 (F := Ideal) x0 x4 x5 (ix3 r (0 : Fin 1) j) := by
  unfold val_main_v18
  refine concatenate_apply_piece (1 : Fin 3) _ _ (ix3 r (6 : Fin 8) j) 1 ?_ S200000x1x128 (val_main_v4 (F := Ideal) x0 x4 x5) ?_ ?_ 6 ?_
    (ix3 r (0 : Fin 1) j) ?_ ?_
  · show (1 : ℕ) < 3; omega
  · rfl
  · rfl
  · rfl
  · intro b hb
    match b with
    | ⟨0, _⟩ => rfl
    | ⟨1, _⟩ => exact absurd rfl hb
    | ⟨2, _⟩ => rfl
  · show 6 + 0 = 6; rfl

/-- The eighth is the parallel message. -/
theorem msgs_7 (r : Fin 200000) (j : Fin 128) :
    val_main_v18 (F := Ideal) x0 x1 x3 x4 x5 x6 x7 (ix3 r (7 : Fin 8) j)
      = val_main_v16 (F := Ideal) x0 x3 x6 x7 (ix3 r (0 : Fin 1) j) := by
  unfold val_main_v18
  refine concatenate_apply_piece (1 : Fin 3) _ _ (ix3 r (7 : Fin 8) j) 2 ?_ S200000x1x128 (val_main_v16 (F := Ideal) x0 x3 x6 x7) ?_ ?_ 7 ?_
    (ix3 r (0 : Fin 1) j) ?_ ?_
  · show (2 : ℕ) < 3; omega
  · rfl
  · rfl
  · rfl
  · intro b hb
    match b with
    | ⟨0, _⟩ => rfl
    | ⟨1, _⟩ => exact absurd rfl hb
    | ⟨2, _⟩ => rfl
  · show 7 + 0 = 7; rfl

/-- The self message of node `r` is `x r` through `(Ws, bs)`. -/
theorem self_msg (r : Fin 200000) (j : Fin 128) :
    val_main_v4 (F := Ideal) x0 x4 x5 (ix3 r (0 : Fin 1) j) = Cert.Agg.lin x0 x4 (Cert.Agg.biasRow x5) r j := by
  rw [val_main_v4_apply, val_main_v3_apply, val_main_v0_apply, val_main_v2_apply, val_main_v1_apply]
  unfold Cert.Agg.lin Cert.Agg.biasRow
  refine congrArg₂ (· + ·) (Finset.sum_congr rfl fun k _ => congrArg₂ (· * ·) (congrArg x0 ?_) (congrArg x4 ?_))
    (congrArg x5 ?_)
  · funext a; match a with | ⟨0, _⟩ => rfl | ⟨1, _⟩ => rfl
  · funext a; match a with | ⟨0, _⟩ => rfl | ⟨1, _⟩ => rfl
  · funext a; match a with | ⟨0, _⟩ => rfl

/-- The index column at row `r` is the scalar normalisation of the index of `r`. -/
theorem col_apply (r : Fin 200000) :
    val_main_v14 (F := Ideal) x3 (ix2 r (0 : Fin 1))
      = Scalar.select (IntOp.cmpi .slt (x3 (ix1 r)) 0#32) (IntOp.addi (x3 (ix1 r)) 200000#32) (x3 (ix1 r)) := by
  have hi : idx_main_v14 (ix2 r (0 : Fin 1)) = ix1 r := by
    funext a; match a with | ⟨0, _⟩ => rfl
  rw [val_main_v14_apply, hi]
  rfl

/-- The parallel message of node `r` is the gathered row of `r` through `(Wp, bp)`: taking a row commutes with the
    affine map of rows. -/
theorem par_msg (r : Fin 200000) (j : Fin 128) :
    val_main_v16 (F := Ideal) x0 x3 x6 x7 (ix3 r (0 : Fin 1) j)
      = Cert.Agg.lin (Cert.Agg.gathered x0 x3) x6 (Cert.Agg.biasRow x7) r j := by
  rw [val_main_v16_apply]
  have hi : idx_main_v16 (ix3 r (0 : Fin 1) j) = ix2 r j := by
    funext a; match a with | ⟨0, _⟩ => rfl | ⟨1, _⟩ => rfl
  rw [hi]
  unfold val_main_v15
  refine (Cert.SegmentRows.gather_rows_apply (N := 200000) (E := 200000) (C := 128) (by decide)
    gather_S200000x128_S200000x1_S200000x128_1_0_n_n_0_1_1128_wf (val_main_v8 (F := Ideal) x0 x6 x7)
    (val_main_v14 (F := Ideal) x3) r j).trans ?_
  have hrow : Cert.SegmentRows.takeRow (N := 200000) (by decide) (val_main_v14 (F := Ideal) x3) r
      = Cert.Agg.normRow (x3 (ix1 r)) :=
    Fin.ext (by
      show min (val_main_v14 (F := Ideal) x3 (ix2 r (0 : Fin 1))).toInt.toNat (200000 - 1) = _
      rw [col_apply]
      rfl)
  rw [hrow, val_main_v8_apply, val_main_v5_apply, val_main_v7_apply, val_main_v6_apply]
  unfold Cert.Agg.lin Cert.Agg.biasRow Cert.Agg.gathered
  refine congrArg₂ (· + ·) (Finset.sum_congr rfl fun k _ => congrArg₂ (· * ·) (congrArg x0 ?_) (congrArg x6 ?_))
    (congrArg x7 ?_)
  · funext a; match a with | ⟨0, _⟩ => rfl | ⟨1, _⟩ => rfl
  · funext a; match a with | ⟨0, _⟩ => rfl | ⟨1, _⟩ => rfl
  · funext a; match a with | ⟨0, _⟩ => rfl

/-! ## The masked sum of the eight messages -/

/-- Message `k` of node `r` after the selection: the message times its bit. -/
theorem sel_term (r : Fin 200000) (j : Fin 128) (k : Fin 8) :
    val_main_v21 (F := Ideal) x0 x1 x2 x3 x4 x5 x6 x7 (idx_main_v22 (ix2 r j) k)
      = val_main_v18 (F := Ideal) x0 x1 x3 x4 x5 x6 x7 (ix3 r k j) * Cert.Agg.bit (val_main_v19 (F := Ideal) x2 (ix2 r k)) := by
  have hq : idx_main_v22 (ix2 r j) k = ix3 r k j := by
    funext a; match a with | ⟨0, _⟩ => rfl | ⟨1, _⟩ => rfl | ⟨2, _⟩ => rfl
  rw [hq, val_main_v21_apply, val_main_call0_v1_apply, val_main_v20_apply, val_main_call0_v2_apply]
  have hb : idx_main_v20 (idx_main_call0_v1 (ix3 r k j)) = ix2 r k := by
    funext a; match a with | ⟨0, _⟩ => rfl | ⟨1, _⟩ => rfl
  rw [hb]
  have hz : val_main_call0_v0 (F := Ideal) (idx_main_call0_v2 (ix3 r k j)) = 0 :=
    Ideal.ofBits_zero_f32
  rw [hz]
  exact Cert.Agg.select_zero_eq_mul_bit _ _

/-- THE MASKED SUM of node `r` at column `j` is the aggregated row of the specification. -/
theorem row_sum (r : Fin 200000) (j : Fin 128) :
    val_main_v22 (F := Ideal) x0 x1 x2 x3 x4 x5 x6 x7 (ix2 r j)
      = Cert.Agg.acc x0 x1 (Cert.Agg.weights x2) (Cert.Agg.gathered x0 x3) x4 (Cert.Agg.biasRow x5) x6 (Cert.Agg.biasRow x7) r j := by
  have t (k : Fin 6) : val_main_v21 (F := Ideal) x0 x1 x2 x3 x4 x5 x6 x7 (idx_main_v22 (ix2 r j) (⟨k.val, by omega⟩ : Fin 8))
      = x1 (ix3 r k j) * Cert.Agg.weights x2 (ix2 r k) :=
    (sel_term x0 x1 x2 x3 x4 x5 x6 x7 r j _).trans (congrArg₂ (· * ·) (msgs_lt x0 x1 x3 x4 x5 x6 x7 r k j) (congrArg Cert.Agg.bit (bits_lt x2 r k)))
  have t6 : val_main_v21 (F := Ideal) x0 x1 x2 x3 x4 x5 x6 x7 (idx_main_v22 (ix2 r j) (6 : Fin 8))
      = Cert.Agg.lin x0 x4 (Cert.Agg.biasRow x5) r j := by
    rw [sel_term, msgs_6, self_msg, bits_6, Cert.Agg.bit_one, mul_one]
  have t7 : val_main_v21 (F := Ideal) x0 x1 x2 x3 x4 x5 x6 x7 (idx_main_v22 (ix2 r j) (7 : Fin 8))
      = Cert.Agg.lin (Cert.Agg.gathered x0 x3) x6 (Cert.Agg.biasRow x7) r j := by
    rw [sel_term, msgs_7, par_msg, bits_7, Cert.Agg.bit_one, mul_one]
  have hz : val_main_cst_2 (F := Ideal) (Shape.Idx.first h_S_) = 0 := Ideal.ofBits_zero_f32
  rw [val_main_v22_apply, hz, zero_add, Fin.sum_univ_eight]
  rw [show (0 : Fin 8) = ⟨(0 : Fin 6).val, by decide⟩ from rfl, show (1 : Fin 8) = ⟨(1 : Fin 6).val, by decide⟩ from rfl,
    show (2 : Fin 8) = ⟨(2 : Fin 6).val, by decide⟩ from rfl, show (3 : Fin 8) = ⟨(3 : Fin 6).val, by decide⟩ from rfl,
    show (4 : Fin 8) = ⟨(4 : Fin 6).val, by decide⟩ from rfl, show (5 : Fin 8) = ⟨(5 : Fin 6).val, by decide⟩ from rfl,
    t 0, t 1, t 2, t 3, t 4, t 5, t6, t7]
  unfold Cert.Agg.acc
  ac_rfl

/-! ## No row is replaced -/

/-- With two bits always set, the count of set bits of a node is not zero. -/
theorem count_ne_zero : ∀ a0 a1 a2 a3 a4 a5 : BitVec 1,
    IntOp.cmpi .eq (a0.setWidth 32 + a1.setWidth 32 + a2.setWidth 32 + a3.setWidth 32 + a4.setWidth 32
      + a5.setWidth 32 + (1#1).setWidth 32 + (1#1).setWidth 32) 0#32 = 0#1 := by decide

/-- Eight words added up from zero, as a sum. -/
theorem fold_addi_eq_sum (f : Fin 8 → BitVec 32) :
    Finset.fold IntOp.addi 0#32 f Finset.univ = ∑ k, f k := by
  rw [Finset.sum_eq_fold]
  rfl

/-- The test "no bit of node `r` is set" fails. -/
theorem not_all_masked (r : Fin 200000) (c : Fin 128) : val_main_call1_v1 (F := Ideal) x2 (ix2 r c) = 0#1 := by
  rw [val_main_call1_v1_apply, val_main_v31_apply, val_main_v30_apply]
  have hi : idx_main_v31 (idx_main_call1_v1 (ix2 r c)) = ix1 r := by
    funext a; match a with | ⟨0, _⟩ => rfl
  rw [hi]
  have hred : S200000x8.Reduces [1] S200000 := by decide
  have hsum : val_main_v28 (F := Ideal) x2 (ix1 r)
      = ∑ k : Fin 8, (val_main_v19 (F := Ideal) x2 (ix2 r k)).setWidth 32 := by
    unfold val_main_v28
    rw [Host.reduce_eq_fold_single IntOp.addi _ _ reducesTo_S200000x8_S200000_d1 hred h_S_ (ix1 r)]
    refine (fold_addi_eq_sum fun k : Fin 8 => (val_main_v19 (F := Ideal) x2 (hred.lift (ix1 r) k)).setWidth 32).trans ?_
    refine Finset.sum_congr rfl fun k _ => ?_
    rw [Cert.Rows.lift_row hred r k]
  rw [hsum, Fin.sum_univ_eight]
  rw [show (0 : Fin 8) = ⟨(0 : Fin 6).val, by decide⟩ from rfl, show (1 : Fin 8) = ⟨(1 : Fin 6).val, by decide⟩ from rfl,
    show (2 : Fin 8) = ⟨(2 : Fin 6).val, by decide⟩ from rfl, show (3 : Fin 8) = ⟨(3 : Fin 6).val, by decide⟩ from rfl,
    show (4 : Fin 8) = ⟨(4 : Fin 6).val, by decide⟩ from rfl, show (5 : Fin 8) = ⟨(5 : Fin 6).val, by decide⟩ from rfl,
    bits_lt, bits_lt, bits_lt, bits_lt, bits_lt, bits_lt, bits_6, bits_7]
  exact count_ne_zero _ _ _ _ _ _

/-! ## The result -/

/-- THE REFERENCE'S RESULT at `(r, c)`. -/
theorem result_apply (r : Fin 200000) (c : Fin 128) :
    val_main_v32 (F := Ideal) x0 x1 x2 x3 x4 x5 x6 x7 x8 x9 (ix2 r c)
      = Cert.Agg.out x0 x1 (Cert.Agg.weights x2) (Cert.Agg.gathered x0 x3) x4 (Cert.Agg.biasRow x5) x6 (Cert.Agg.biasRow x7)
          x8 (Cert.Agg.biasRow x9) r c := by
  rw [val_main_v32_apply, not_all_masked, select_zero, val_main_v26_apply, val_main_v23_apply, val_main_v25_apply,
    val_main_v24_apply]
  unfold Cert.Agg.out Cert.Agg.biasRow
  refine congrArg₂ (· + ·) (Finset.sum_congr rfl fun k _ => congrArg₂ (· * ·) ?_ (congrArg x8 ?_)) (congrArg x9 ?_)
  · have hl : lidx_main_v23 (ix2 r c) k = ix2 r k := by
      funext a; match a with | ⟨0, _⟩ => rfl | ⟨1, _⟩ => rfl
    rw [hl]
    exact row_sum x0 x1 x2 x3 x4 x5 x6 x7 r k
  · funext a; match a with | ⟨0, _⟩ => rfl | ⟨1, _⟩ => rfl
  · funext a; match a with | ⟨0, _⟩ => rfl

/-- THE REFERENCE'S RESULT is the aggregation layer of its arguments. -/
theorem result_eq :
    val_main_v32 (F := Ideal) x0 x1 x2 x3 x4 x5 x6 x7 x8 x9 = Cert.Agg.Gargs x0 x1 x2 x3 x4 x5 x6 x7 x8 x9 := by
  funext i
  obtain ⟨r, c, rfl⟩ : ∃ (r : Fin 200000) (c : Fin 128), i = ix2 r c := ⟨i 0, i 1, eq_ix2 i⟩
  exact result_apply x0 x1 x2 x3 x4 x5 x6 x7 x8 x9 r c

end Cert.Agg.Ref

end
-- ==== Proof.lean ====
/-
  A message-passing aggregation layer: a fused kernel against its array reference, over the extended reals.

  For each of 200000 nodes `r` both programs compute

      out r c = ∑ j, (x r · Ws + bs + x (idx r) · Wp + bp + ∑ i, msg r i · mask r i) j · Wo j c + bo c,

  where `idx r` names a further node (a negative index counts from the end; the index is clamped into the table) and
  `mask r i` is 0 or 1.

  * The kernel program gathers the rows `x (idx r)` first, turns the mask bits into the numbers 0 and 1, and then
    runs one kernel over 100 blocks of 2000 nodes: two affine maps, the six weighted messages added one after the
    other, a third affine map (its narrowings of the float format are the identity on the extended reals). A block
    of the result depends on the same block of the per-node arrays only, and the blocks tile the array: the result
    array is `Cert.Agg.Gargs` of the arguments (Proof/AggBody.lean, AggBlocks.lean, AggHost.lean).
  * The reference computes `x · Wp + bp` for every node and gathers rows of that; it joins the six messages with the
    two computed ones, selects by the joined mask, adds the eight up, applies the third affine map, and zeroes a row
    whose mask bits are all clear — which never happens, two of the eight bits being always set. Taking a row commutes
    with an affine map of rows, a selection by a bit is a product with the bit, and a sum of extended reals does not
    depend on its order: its result is the same `Cert.Agg.Gargs` of the arguments (Proof/AggRef.lean).

  The proof below never uses the precondition (every float input finite): the three laws above hold on all extended
  reals. The idealization claim is `True` as stated (the claim's definition records that no operation of the kernel
  program was rewritten), and each of the three programs' runs leaves its arguments unchanged.
-/
import proofs.«129539_j86139864089509_1_alg».proof.Defs
import proofs.«129539_j86139864089509_1_alg».proof.Proof.Gen.Kernel
import proofs.«129539_j86139864089509_1_alg».proof.Proof.Gen.Kernel.Skeleton
import proofs.«129539_j86139864089509_1_alg».proof.Proof.Gen.Kernel.Launch
import proofs.«129539_j86139864089509_1_alg».proof.Proof.Gen.Kernel.Points
import proofs.«129539_j86139864089509_1_alg».proof.Proof.Gen.Kernel.Frame
import proofs.«129539_j86139864089509_1_alg».proof.Proof.Gen.KernelIdeal
import proofs.«129539_j86139864089509_1_alg».proof.Proof.Gen.KernelIdeal.Skeleton
import proofs.«129539_j86139864089509_1_alg».proof.Proof.Gen.KernelIdeal.Launch
import proofs.«129539_j86139864089509_1_alg».proof.Proof.Gen.KernelIdeal.Points
import proofs.«129539_j86139864089509_1_alg».proof.Proof.Gen.KernelIdeal.Frame
import proofs.«129539_j86139864089509_1_alg».proof.Proof.Gen.KernelIdeal.Value
import proofs.«129539_j86139864089509_1_alg».proof.Proof.Gen.ReferenceIdeal
import proofs.«129539_j86139864089509_1_alg».proof.Proof.Gen.Pre_finite_inputs
import proofs.«129539_j86139864089509_1_alg».proof.Proof.RefRun
import proofs.«129539_j86139864089509_1_alg».proof.Proof.RefRead
import proofs.«129539_j86139864089509_1_alg».proof.Proof.AggBlocks
import proofs.«129539_j86139864089509_1_alg».proof.Proof.AggHost
import proofs.«129539_j86139864089509_1_alg».proof.Proof.AggRef
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel program is the kernel program's own text: nothing to preserve. -/
theorem preserves : Cert.preserves_Kernel_KernelIdeal := trivial

/-- From memories that agree on the arguments, both idealized programs end with the aggregation layer of the
    arguments as their result. -/
theorem algebraic : Cert.algebraic_KernelIdeal_ReferenceIdeal := by
  intro m ρ m' ρ' _ hagree
  refine ⟨fun c => Cert.Agg.Gargs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Agg.Host.G_V_eq m c), (h c).2⟩) (Cert.Agg.Blocks.run m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9⟩ := hagree c
    rw [Cert.ReferenceIdeal.ReadP.val_main_v32_eq, Cert.Agg.Ref.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
